-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x30x30x512 : Shape := ⟨4, ![128, 30, 30, 512]⟩
abbrev S128x30x30 : Shape := ⟨3, ![128, 30, 30]⟩
abbrev S30x30x256 : Shape := ⟨3, ![30, 30, 256]⟩
abbrev S10x256 : Shape := ⟨2, ![10, 256]⟩
abbrev S_ : Shape := ⟨0, ![]⟩

class Facts : Prop where
  bcast_S_S128x30x30x512 : S_.BroadcastsInDim S128x30x30x512 (![] : Fin 0 → Fin S128x30x30x512.rank)
  reducesTo_S128x30x30x512_S_d0_1_2_3 : S128x30x30x512.ReducesTo [0, 1, 2, 3] S_
  h_S_ : 0 < S_.numel
  bcast_S_S30x30x256 : S_.BroadcastsInDim S30x30x256 (![] : Fin 0 → Fin S30x30x256.rank)
  reducesTo_S30x30x256_S_d0_1_2 : S30x30x256.ReducesTo [0, 1, 2] S_
  bcast_S_S10x256 : S_.BroadcastsInDim S10x256 (![] : Fin 0 → Fin S10x256.rank)
  reducesTo_S10x256_S_d0_1 : S10x256.ReducesTo [0, 1] S_
  bcast_S_S128x30x30 : S_.BroadcastsInDim S128x30x30 (![] : Fin 0 → Fin S128x30x30.rank)
  reducesTo_S128x30x30_S_d0_1_2 : S128x30x30.ReducesTo [0, 1, 2] S_

variable [Facts]

def fn_part1 {F : FTy → Type} [FloatOps F] (main_arg1 : IVec S128x30x30 32) (main_v13 : IVec S_ 1) (main_v15 : IVec S128x30x30 1) (main_c_5 : IVec S_ 1) : IVec S_ 1 :=
  let main_v16 : IVec S_ 1 := (fun x v => Host.reduce IntOp.andi x v reducesTo_S128x30x30_S_d0_1_2 h_S_) main_v15 main_c_5
  let main_v17 : IVec S_ 1 := andi main_v13 main_v16
  let main_c_6 : IVec S_ 32 := constantI S_ 32 10#32
  let main_v18 : IVec S128x30x30 32 := broadcastInDim S128x30x30 ![] bcast_S_S128x30x30 main_c_6
  let main_v19 : IVec S128x30x30 1 := cmpi .slt main_arg1 main_v18
  let main_c_7 : IVec S_ 1 := constantI S_ 1 1#1
  let main_v20 : IVec S_ 1 := (fun x v => Host.reduce IntOp.andi x v reducesTo_S128x30x30_S_d0_1_2 h_S_) main_v19 main_c_7
  let main_v21 : IVec S_ 1 := andi main_v17 main_v20
  main_v21

def fn {F : FTy → Type} [FloatOps F] (main_arg0 : FVec F S128x30x30x512 .f32) (main_arg1 : IVec S128x30x30 32) (main_arg2 : FVec F S30x30x256 .f32) (main_arg3 : FVec F S10x256 .f32) : IVec S_ 1 :=
  let main_v0 : FVec F S128x30x30x512 .f32 := Host.absf main_arg0
  let main_cst : FVec F S_ .f32 := constant S_ .f32 0x7F800000#32
  let main_v1 : FVec F S128x30x30x512 .f32 := broadcastInDim S128x30x30x512 ![] bcast_S_S128x30x30x512 main_cst
  let main_v2 : IVec S128x30x30x512 1 := cmpf .olt main_v0 main_v1
  let main_c : IVec S_ 1 := constantI S_ 1 1#1
  let main_v3 : IVec S_ 1 := (fun x v => Host.reduce IntOp.andi x v reducesTo_S128x30x30x512_S_d0_1_2_3 h_S_) main_v2 main_c
  let main_v4 : FVec F S30x30x256 .f32 := Host.absf main_arg2
  let main_cst_0 : FVec F S_ .f32 := constant S_ .f32 0x7F800000#32
  let main_v5 : FVec F S30x30x256 .f32 := broadcastInDim S30x30x256 ![] bcast_S_S30x30x256 main_cst_0
  let main_v6 : IVec S30x30x256 1 := cmpf .olt main_v4 main_v5
  let main_c_1 : IVec S_ 1 := constantI S_ 1 1#1
  let main_v7 : IVec S_ 1 := (fun x v => Host.reduce IntOp.andi x v reducesTo_S30x30x256_S_d0_1_2 h_S_) main_v6 main_c_1
  let main_v8 : IVec S_ 1 := andi main_v3 main_v7
  let main_v9 : FVec F S10x256 .f32 := Host.absf main_arg3
  let main_cst_2 : FVec F S_ .f32 := constant S_ .f32 0x7F800000#32
  let main_v10 : FVec F S10x256 .f32 := broadcastInDim S10x256 ![] bcast_S_S10x256 main_cst_2
  let main_v11 : IVec S10x256 1 := cmpf .olt main_v9 main_v10
  let main_c_3 : IVec S_ 1 := constantI S_ 1 1#1
  let main_v12 : IVec S_ 1 := (fun x v => Host.reduce IntOp.andi x v reducesTo_S10x256_S_d0_1 h_S_) main_v11 main_c_3
  let main_v13 : IVec S_ 1 := andi main_v8 main_v12
  let main_c_4 : IVec S_ 32 := constantI S_ 32 0#32
  let main_v14 : IVec S128x30x30 32 := broadcastInDim S128x30x30 ![] bcast_S_S128x30x30 main_c_4
  let main_v15 : IVec S128x30x30 1 := cmpi .sge main_arg1 main_v14
  let main_c_5 : IVec S_ 1 := constantI S_ 1 1#1
  fn_part1 (F := F) main_arg1 main_v13 main_v15 main_c_5
-- ==== Kernel.lean ====
abbrev S128x30x30x512 : Shape := ⟨4, ![128, 30, 30, 512]⟩
abbrev S128x30x30 : Shape := ⟨3, ![128, 30, 30]⟩
abbrev S30x30x256 : Shape := ⟨3, ![30, 30, 256]⟩
abbrev S10x256 : Shape := ⟨2, ![10, 256]⟩
abbrev S4x30x30x512 : Shape := ⟨4, ![4, 30, 30, 512]⟩
abbrev S4x30x30 : Shape := ⟨3, ![4, 30, 30]⟩
abbrev S2x30x30x256 : Shape := ⟨4, ![2, 30, 30, 256]⟩
abbrev S1x30x30x256 : Shape := ⟨4, ![1, 30, 30, 256]⟩
abbrev S2x30x30 : Shape := ⟨3, ![2, 30, 30]⟩
abbrev S2x30x30x10 : Shape := ⟨4, ![2, 30, 30, 10]⟩
abbrev S2x30x30x1 : Shape := ⟨4, ![2, 30, 30, 1]⟩
abbrev S1800x10 : Shape := ⟨2, ![1800, 10]⟩
abbrev S1800x256 : Shape := ⟨2, ![1800, 256]⟩

abbrev nBuf : Space → Nat
  | .hbm => 5
  | .vmem => 8
  | .smem => 0
  | _ => 0

abbrev bufTy : (tb : Table) → Fin (tcTables nBuf tb) → BufTy
  | .hbm, ⟨0, _⟩ => ⟨S128x30x30x512, .f32⟩
  | .hbm, ⟨1, _⟩ => ⟨S128x30x30, .i32⟩
  | .hbm, ⟨2, _⟩ => ⟨S30x30x256, .f32⟩
  | .hbm, ⟨3, _⟩ => ⟨S10x256, .f32⟩
  | .hbm, ⟨4, _⟩ => ⟨S128x30x30x512, .f32⟩
  | .local _ .vmem, ⟨0, _⟩ => ⟨S4x30x30x512, .f32⟩
  | .local _ .vmem, ⟨1, _⟩ => ⟨S4x30x30x512, .f32⟩
  | .local _ .vmem, ⟨2, _⟩ => ⟨S4x30x30, .i32⟩
  | .local _ .vmem, ⟨3, _⟩ => ⟨S4x30x30, .i32⟩
  | .local _ .vmem, ⟨4, _⟩ => ⟨S30x30x256, .f32⟩
  | .local _ .vmem, ⟨5, _⟩ => ⟨S10x256, .f32⟩
  | .local _ .vmem, ⟨6, _⟩ => ⟨S4x30x30x512, .f32⟩
  | .local _ .vmem, ⟨7, _⟩ => ⟨S4x30x30x512, .f32⟩
  | _, _ => ⟨S128x30x30x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 4 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c2_i32_3 : BitVec 32 := 2#32
  let v3 : BitVec 32 := Scalar.muli v2 c2_i32_3
  let v4 : Index := Scalar.indexCast v3
  let c0 : Index := 0#32
  let c0_4 : Index := 0#32
  let c0_5 : Index := 0#32
  ![v4.toNat, 0, 0, 0]
def k0_off2 (k0_t1 : Fin k0_t1_loop.trips) : Fin 3 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c2_i32_3 : BitVec 32 := 2#32
  let v3 : BitVec 32 := Scalar.muli v2 c2_i32_3
  let v12 : Index := Scalar.indexCast v3
  let c0_12 : Index := 0#32
  let c0_13 : Index := 0#32
  ![v12.toNat, 0, 0]
def k0_off3 (k0_t1 : Fin k0_t1_loop.trips) : Fin 4 → Nat :=
  let c0_i32_2 : BitVec 32 := 0#32
  let c0_i32 : BitVec 32 := 0#32
  let c1_i32 : BitVec 32 := 1#32
  let arg6 : BitVec 32 := Scf.iv c0_i32 c1_i32 k0_t1
  let c1_i32_1 : BitVec 32 := 1#32
  let v1 : BitVec 32 := Scalar.muli arg6 c1_i32_1
  let v2 : BitVec 32 := Scalar.addi c0_i32_2 v1
  let c2_i32_3 : BitVec 32 := 2#32
  let v3 : BitVec 32 := Scalar.muli v2 c2_i32_3
  let v24 : Index := Scalar.indexCast v3
  let c0_16 : Index := 0#32
  let c0_17 : Index := 0#32
  let c256 : Index := 256#32
  ![v24.toNat, 0, 0, 256]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x30x30x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x30x30 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x30x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x30x30x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  h_S2x30x30x256 : 0 < S2x30x30x256.numel
  inb_S30x30x256_S30x30x256_0_0_0 : ∀ a, (![0, 0, 0] : Fin 3 → Nat) a + S30x30x256.size a ≤ S30x30x256.size a
  h_S30x30x256 : 0 < S30x30x256.numel
  shapeCasts_S30x30x256_S1x30x30x256 : S30x30x256.ShapeCasts S1x30x30x256
  broadcasts_S1x30x30x256_S2x30x30x256 : S1x30x30x256.Broadcasts S2x30x30x256
  h_S2x30x30 : 0 < S2x30x30.numel
  iota_S2x30x30x10_d3_w32 : S2x30x30x10.Iotas .tc 32 [3]
  shapeCasts_S2x30x30_S2x30x30x1 : S2x30x30.ShapeCasts S2x30x30x1
  broadcasts_S2x30x30x1_S2x30x30x10 : S2x30x30x1.Broadcasts S2x30x30x10
  natLt_1_32 : 1 < 32
  shapeCasts_S2x30x30x10_S1800x10 : S2x30x30x10.ShapeCasts S1800x10
  inb_S10x256_S10x256_0_0 : ∀ a, (![0, 0] : Fin 2 → Nat) a + S10x256.size a ≤ S10x256.size a
  h_S10x256 : 0 < S10x256.numel
  shapeCasts_S1800x256_S2x30x30x256 : S1800x256.ShapeCasts S2x30x30x256
  dot_S1800x10_S10x256_S1800x256_1_0_0_1_n_n_wf : DotDims.WF S1800x10 S10x256 S1800x256 [1] [0] [0] [1] [] []
  hrank0 : 0 < grid0.rank
  k0_t1_ok : k0_t1_loop.OK
  k0_off1_inb : ∀ k0_t1 : Fin k0_t1_loop.trips, ∀ a, (k0_off1 k0_t1) a + S2x30x30x256.size a ≤ S4x30x30x512.size a
  k0_off2_inb : ∀ k0_t1 : Fin k0_t1_loop.trips, ∀ a, (k0_off2 k0_t1) a + S2x30x30.size a ≤ S4x30x30.size a
  k0_off3_inb : ∀ k0_t1 : Fin k0_t1_loop.trips, ∀ a, (k0_off3 k0_t1) a + S2x30x30x256.size a ≤ S4x30x30x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x30x30x512.size a ≤ S128x30x30x512.size a
  hwx0_0 : ∀ i : grid0.Coords, EltTy.bits .f32 = 32 ∨ (Rect.block (s := S128x30x30x512) S4x30x30x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x30x30.size a ≤ S128x30x30.size a
  hwx0_1 : ∀ i : grid0.Coords, EltTy.bits .i32 = 32 ∨ (Rect.block (s := S128x30x30) S4x30x30.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x30x256.size a ≤ S30x30x256.size a
  hwx0_2 : ∀ i : grid0.Coords, EltTy.bits .f32 = 32 ∨ (Rect.block (s := S30x30x256) S30x30x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256.size a ≤ S10x256.size a
  hwx0_3 : ∀ i : grid0.Coords, EltTy.bits .f32 = 32 ∨ (Rect.block (s := S10x256) S10x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x30x30x512.size a ≤ S128x30x30x512.size a
  hwx0_4 : ∀ i : grid0.Coords, EltTy.bits .f32 = 32 ∨ (Rect.block (s := S128x30x30x512) S4x30x30x512.size (cc0_transform_4 i) (hinb0_4 i)).WholeWords (EltTy.packing .f32)

variable [Facts₀]

def dot_S1800x10_S10x256_S1800x256_1_0_0_1_n_n : DotDims S1800x10 S10x256 S1800x256 where
  lhsContracting := [1]
  rhsContracting := [0]
  lhsNonContracting := [0]
  rhsNonContracting := [1]
  lhsBatch := []
  rhsBatch := []
  wf := dot_S1800x10_S10x256_S1800x256_1_0_0_1_n_n_wf

abbrev win0_0 : Pipeline.Window sig grid0 :=
  Pipeline.Window.ofSpec (Memref.whole main_arg0) S4x30x30x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x30x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S30x30x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x30x30x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x30x30x512 : Shape := ⟨4, ![128, 30, 30, 512]⟩
abbrev S128x30x30 : Shape := ⟨3, ![128, 30, 30]⟩
abbrev S30x30x256 : Shape := ⟨3, ![30, 30, 256]⟩
abbrev S10x256 : Shape := ⟨2, ![10, 256]⟩
abbrev S1x30x30x256 : Shape := ⟨4, ![1, 30, 30, 256]⟩
abbrev S_ : Shape := ⟨0, ![]⟩
abbrev S128x30x30x1 : Shape := ⟨4, ![128, 30, 30, 1]⟩
abbrev S128x30x30x256 : Shape := ⟨4, ![128, 30, 30, 256]⟩

abbrev nBuf : Space → Nat
  | .hbm => 17
  | .vmem => 0
  | .smem => 0
  | _ => 0

abbrev bufTy : (tb : Table) → Fin (tcTables nBuf tb) → BufTy
  | .hbm, ⟨0, _⟩ => ⟨S128x30x30x512, .f32⟩
  | .hbm, ⟨1, _⟩ => ⟨S128x30x30, .i32⟩
  | .hbm, ⟨2, _⟩ => ⟨S30x30x256, .f32⟩
  | .hbm, ⟨3, _⟩ => ⟨S10x256, .f32⟩
  | .hbm, ⟨4, _⟩ => ⟨S1x30x30x256, .f32⟩
  | .hbm, ⟨5, _⟩ => ⟨S_, .i32⟩
  | .hbm, ⟨6, _⟩ => ⟨S128x30x30, .i32⟩
  | .hbm, ⟨7, _⟩ => ⟨S128x30x30, .i1⟩
  | .hbm, ⟨8, _⟩ => ⟨S_, .i32⟩
  | .hbm, ⟨9, _⟩ => ⟨S128x30x30, .i32⟩
  | .hbm, ⟨10, _⟩ => ⟨S128x30x30, .i32⟩
  | .hbm, ⟨11, _⟩ => ⟨S128x30x30, .i32⟩
  | .hbm, ⟨12, _⟩ => ⟨S128x30x30x1, .i32⟩
  | .hbm, ⟨13, _⟩ => ⟨S128x30x30x256, .f32⟩
  | .hbm, ⟨14, _⟩ => ⟨S128x30x30x256, .f32⟩
  | .hbm, ⟨15, _⟩ => ⟨S128x30x30x512, .f32⟩
  | .hbm, ⟨16, _⟩ => ⟨S128x30x30x512, .f32⟩
  | _, _ => ⟨S128x30x30x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S30x30x256_S1x30x30x256_1_2_3 : S30x30x256.BroadcastsInDim S1x30x30x256 (![1, 2, 3] : Fin 3 → Fin S1x30x30x256.rank)
  bcast_S_S128x30x30 : S_.BroadcastsInDim S128x30x30 (![] : Fin 0 → Fin S128x30x30.rank)
  bcast_S128x30x30_S128x30x30x1_0_1_2 : S128x30x30.BroadcastsInDim S128x30x30x1 (![0, 1, 2] : Fin 3 → Fin S128x30x30x1.rank)
  bcast_S1x30x30x256_S128x30x30x256_0_1_2_3 : S1x30x30x256.BroadcastsInDim S128x30x30x256 (![0, 1, 2, 3] : Fin 4 → Fin S128x30x30x256.rank)
  concatenates_S128x30x30x256_S128x30x30x256_S128x30x30x512_d3 : Shape.Concatenates [S128x30x30x256, S128x30x30x256] S128x30x30x512 3
  gather_S10x256_S128x30x30x1_S128x30x30x256_3_0_n_n_0_3_1256_wf : GatherDims.WF S10x256 S128x30x30x1 S128x30x30x256 [3] [0] [] [0] [] 3 ![1, 256]

variable [Facts₀]

def gather_S10x256_S128x30x30x1_S128x30x30x256_3_0_n_n_0_3_1256 : GatherDims S10x256 S128x30x30x1 S128x30x30x256 where
  offsetDims := [3]
  collapsedSliceDims := [0]
  operandBatchingDims := []
  startIndicesBatchingDims := []
  startIndexMap := [0]
  indexVectorDim := 3
  sliceSizes := ![1, 256]
  wf := gather_S10x256_S128x30x30x1_S128x30x30x256_3_0_n_n_0_3_1256_wf

class Facts : Prop extends Facts₀ where

variable [Facts]
-- ==== Proof.Spec.lean ====
/-
  The result both programs compute, as one function of the four argument arrays.

  The arrays: `x : [128, 30, 30, 512]` (a batch of 30 × 30 pixel grids, 512 features per pixel), `idx : [128, 30, 30]`
  (one colour word per pixel), `sp : [30, 30, 256]` (a positional row per grid position) and `ch : [10, 256]` (a row per
  colour). The result adds to the first 256 features of pixel `(b, h, w)` the positional row of `(h, w)`, and to the last
  256 features the row of the pixel's colour:

      out[b, h, w, d] = x[b, h, w, d] + sp[h, w, d]                    for d < 256,
      out[b, h, w, d] = x[b, h, w, d] + ch[idx[b, h, w], d − 256]      for 256 ≤ d.

  The colour row is written `row`, total in the colour word: a word that is not one of the ten colours selects the zero
  row. (That is what a sum over the ten colours of "the word is this colour" times the colour's row gives; for a word that
  IS a colour it is the colour's row, which is what a lookup gives. The two programs are compared only on colour words.)
-/
import Idealize.ShloMosaic.PureOps.Ideal
import Idealize.ShloMosaic.Lib.ValueIdx

noncomputable section

namespace Cert.Spec

open Idealize.ShloMosaic Idealize.ShloMosaic.ValueIdx

/-- The batch of feature grids. -/
abbrev SX : Shape := ⟨4, ![128, 30, 30, 512]⟩
/-- One colour word per pixel. -/
abbrev SI : Shape := ⟨3, ![128, 30, 30]⟩
/-- One positional row per grid position. -/
abbrev SP : Shape := ⟨3, ![30, 30, 256]⟩
/-- One row per colour. -/
abbrev SC : Shape := ⟨2, ![10, 256]⟩

/-- The row of colour word `w` at feature `d`: the table's row `w` when `w` is one of the ten colours, zero otherwise. -/
def row (ch : SC.Idx → EReal) (w : BitVec 32) (d : Fin 256) : EReal :=
  if h : w.toNat < 10 then ch (ix2 ⟨w.toNat, h⟩ d) else 0

/-- What is added to feature `d` of pixel `(b, h, w)`: the positional row below 256, the colour's row from 256 on. -/
def enc (idx : SI.Idx → BitVec 32) (sp : SP.Idx → EReal) (ch : SC.Idx → EReal)
    (b : Fin 128) (h : Fin 30) (w : Fin 30) (d : Fin 512) : EReal :=
  if hd : d.val < 256 then sp (ix3 h w ⟨d.val, hd⟩)
  else row ch (idx (ix3 b h w)) ⟨d.val - 256, by omega⟩

/-- The result: the features plus their encoding. -/
def G (x : SX.Idx → EReal) (idx : SI.Idx → BitVec 32) (sp : SP.Idx → EReal) (ch : SC.Idx → EReal) : SX.Idx → EReal :=
  fun j => x j + enc idx sp ch (j 0) (j 1) (j 2) (j 3)

/-- The result at an index given by its coordinates. -/
theorem G_ix4 (x : SX.Idx → EReal) (idx : SI.Idx → BitVec 32) (sp : SP.Idx → EReal) (ch : SC.Idx → EReal)
    (b : Fin 128) (h : Fin 30) (w : Fin 30) (d : Fin 512) :
    G x idx sp ch (ix4 b h w d) = x (ix4 b h w d) + enc idx sp ch b h w d := rfl

/-- Below feature 256 the encoding is the positional row. -/
theorem enc_lo (idx : SI.Idx → BitVec 32) (sp : SP.Idx → EReal) (ch : SC.Idx → EReal)
    (b : Fin 128) (h : Fin 30) (w : Fin 30) (d : Fin 512) (hd : d.val < 256) :
    enc idx sp ch b h w d = sp (ix3 h w ⟨d.val, hd⟩) := dif_pos hd

/-- From feature 256 on the encoding is the colour's row. -/
theorem enc_hi (idx : SI.Idx → BitVec 32) (sp : SP.Idx → EReal) (ch : SC.Idx → EReal)
    (b : Fin 128) (h : Fin 30) (w : Fin 30) (d : Fin 512) (hd : ¬ d.val < 256) :
    enc idx sp ch b h w d = row ch (idx (ix3 b h w)) ⟨d.val - 256, by omega⟩ := dif_neg hd

/-- The row of a colour is the table's row. -/
theorem row_of_lt (ch : SC.Idx → EReal) (w : BitVec 32) (d : Fin 256) (h : w.toNat < 10) :
    row ch w d = ch (ix2 ⟨w.toNat, h⟩ d) := dif_pos h

/-- THE SUM OVER THE COLOURS: summing, over the ten colours `k`, the table's entry `ch[k, d]` weighted by one when the word
    is colour `k` and by zero otherwise, gives the word's row. Only `0 · a = 0`, `1 · a = a` and `0 + a = a` are used, which
    hold for every extended real: no finiteness is needed. -/
theorem sum_onehot (ch : SC.Idx → EReal) (w : BitVec 32) (d : Fin 256) :
    ∑ k : Fin 10, (if w = BitVec.ofNat 32 k.val then (1 : EReal) else 0) * ch (ix2 k d) = row ch w d := by
  unfold row
  by_cases h : w.toNat < 10
  · rw [dif_pos h]
    rw [Finset.sum_eq_single (⟨w.toNat, h⟩ : Fin 10)]
    · rw [if_pos (by simp), one_mul]
    · intro k _ hk
      rw [if_neg, zero_mul]
      intro e
      apply hk
      apply Fin.ext
      show k.val = w.toNat
      have := congrArg BitVec.toNat e
      simp only [BitVec.toNat_ofNat] at this
      have hk10 : k.val < 10 := k.isLt
      omega
    · intro hn; exact absurd (Finset.mem_univ _) hn
  · rw [dif_neg h]
    apply Finset.sum_eq_zero
    intro k _
    rw [if_neg, zero_mul]
    intro e
    apply h
    have := congrArg BitVec.toNat e
    simp only [BitVec.toNat_ofNat] at this
    have hk10 : k.val < 10 := k.isLt
    omega

end Cert.Spec

end
-- ==== Proof.RefIsG.lean ====
/-
  The reference's result is the specification, on colour words.

  The reference adds to the features the concatenation, along the feature axis, of the positional table (given a leading
  unit axis and broadcast over the batch) and of a row lookup in the colour table: each pixel's word is first wrapped
  (`word + 10` when negative, as indexing from the end), then the lookup clamps the start row into `[0, 9]`. For a word
  below ten neither the wrap nor the clamp changes it, and the looked-up row is the table's row of the word.
-/
import proofs.«100483_j8358006358358_2_alg».proof.Proof.Gen.ReferenceIdeal.Read
import proofs.«100483_j8358006358358_2_alg».proof.Proof.Spec
import Idealize.ShloMosaic.Lib.Pipeline.Value
import Idealize.ShloMosaic.Lib.ValueIdx

set_option maxRecDepth 16384

noncomputable section

namespace Cert.RefIsG

open Idealize.ShloMosaic Idealize.ShloMosaic.ValueIdx Cert.ReferenceIdeal
open scoped BigOperators

variable [Cert.ReferenceIdeal.Facts]
open Cert.ReferenceIdeal.Facts₀ Cert.ReferenceIdeal.Facts

/-- The lookup's dimension numbers: rows of the [10, 256] table selected by a [128, 30, 30, 1] array of start words. -/
abbrev GD : GatherDims S10x256 S128x30x30x1 S128x30x30x256 := gather_S10x256_S128x30x30x1_S128x30x30x256_3_0_n_n_0_3_1256

/-- THE LOOKUP READ AT `(b, h, w, d)`: the table at the row named by the start word of pixel `(b, h, w)`, read as a signed
    integer and clamped into `[0, 9]`, at feature `d`. -/
theorem gather_apply {α : Type} (x : S10x256.Idx → α) (idx : IVec S128x30x30x1 32)
    (b : Fin 128) (h w : Fin 30) (d : Fin 256) :
    Host.gather GD x idx (ix4 b h w d)
      = x (ix2 ⟨min (idx (ix4 b h w (⟨0, Nat.one_pos⟩ : Fin 1))).toInt.toNat 9, by omega⟩ d) := by
  unfold Host.gather
  congr 1
  funext a
  refine Fin.ext ?_
  match a with
  | ⟨0, _⟩ =>
    show GD.start (ix4 b h w d) idx 0 + GD.batchCoord (ix4 b h w d) 0 + GD.offCoord (ix4 b h w d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ GD.startIndexMap from List.mem_singleton.mpr rfl)]
    have hsi : GD.siIdx (ix4 b h w d) ⟨List.idxOf (0 : Fin 2) GD.startIndexMap,
        List.idxOf_lt_length_iff.2 (List.mem_singleton.mpr rfl)⟩ = ix4 b h w (⟨0, Nat.one_pos⟩ : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show GD.start (ix4 b h w d) idx 1 + GD.batchCoord (ix4 b h w d) 1 + GD.offCoord (ix4 b h w d) 1 = d.val
    rw [GatherDims.batchCoord_eq_zero _ _ _ List.not_mem_nil]
    unfold GatherDims.start
    rw [dif_neg (show (1 : Fin 2) ∉ GD.startIndexMap from by decide)]
    simp only [Nat.add_zero, Nat.zero_add]
    rfl

/-- A word below ten, read as a signed integer, is its unsigned value. -/
theorem toInt_of_lt_ten (v : BitVec 32) (hv : v.toNat < 10) : v.toInt = (v.toNat : ℤ) := by
  rw [BitVec.toInt_eq_toNat_cond]
  split <;> omega

/-- For a colour word (below ten) the reference's index arithmetic is the identity: the word is not negative, so the
    wrap-around `select (word < 0) (word + 10) word` keeps it. -/
theorem wrapped_eq (v : BitVec 32) (hv : v.toNat < 10) :
    Scalar.select (IntOp.cmpi .slt v 0#32) (IntOp.addi v 10#32) v = v := by
  have h0 : IntOp.cmpi .slt v 0#32 = 0#1 := by
    have := toInt_of_lt_ten v hv
    have hnot : ¬ ((v.toNat : ℤ) < 0) := by omega
    simp [IntOp.cmpi, BitVec.slt, this, hnot]
  rw [h0]
  exact select_zero _ _

/-- THE REFERENCE IS `G` on colour words: feature by feature the reference's result — the features plus, below 256, the
    positional table broadcast over the batch and, from 256 on, the looked-up rows — is the specification. -/
theorem ref_eq (x0 : (⟨S128x30x30x512, .f32⟩ : BufTy).Contents (Elt Ideal)) (x1 : (⟨S128x30x30, .i32⟩ : BufTy).Contents (Elt Ideal))
    (x2 : (⟨S30x30x256, .f32⟩ : BufTy).Contents (Elt Ideal)) (x3 : (⟨S10x256, .f32⟩ : BufTy).Contents (Elt Ideal))
    (hrange : ∀ b h w, (x1 (ix3 b h w)).toNat < 10) :
    Read.val_main_v10 (F := Ideal) x0 x1 x2 x3 = Cert.Spec.G x0 x1 x2 x3 := by
  funext j
  obtain ⟨b, h, w, d, rfl⟩ : ∃ (b : Fin 128) (h w : Fin 30) (d : Fin 512), j = ix4 b h w d := ⟨j 0, j 1, j 2, j 3, eq_ix4 j⟩
  rw [Read.val_main_v10_apply, Cert.Spec.G_ix4]
  show (x0 (ix4 b h w d) : EReal) + Read.val_main_v9 (F := Ideal) x1 x2 x3 (ix4 b h w d) = _
  refine congrArg (x0 (ix4 b h w d) + ·) ?_
  unfold Read.val_main_v9
  by_cases hd : d.val < 256
  · rw [Cert.Spec.enc_lo _ _ _ _ _ _ _ hd]
    refine (concatenate_pair_apply_left (s₁ := S128x30x30x256) (s₂ := S128x30x30x256) 3 _ _ _ (ix4 b h w d) rfl (ix4 b h w (⟨d.val, hd⟩ : Fin 256)) (fun a => ?_)).trans ?_
    · match a with
      | ⟨0, _⟩ => rfl
      | ⟨1, _⟩ => rfl
      | ⟨2, _⟩ => rfl
      | ⟨3, _⟩ => rfl
    · rw [Read.val_main_v8_apply, Read.val_main_v0_apply]
      refine congrArg x2 (funext fun a => Fin.ext ?_)
      match a with
      | ⟨0, _⟩ => rfl
      | ⟨1, _⟩ => rfl
      | ⟨2, _⟩ => rfl
  · rw [Cert.Spec.enc_hi _ _ _ _ _ _ _ hd]
    have hd' : d.val - 256 < 256 := by have := d.isLt; omega
    refine (concatenate_pair_apply_right (s₁ := S128x30x30x256) (s₂ := S128x30x30x256) 3 _ _ _ (ix4 b h w d) rfl rfl (ix4 b h w (⟨d.val - 256, hd'⟩ : Fin 256)) (fun a ha => ?_) ?_).trans ?_
    · match a with
      | ⟨0, _⟩ => rfl
      | ⟨1, _⟩ => rfl
      | ⟨2, _⟩ => rfl
      | ⟨3, _⟩ => exact absurd rfl ha
    · show d.val - 256 + 256 = d.val
      omega
    · unfold Read.val_main_v7
      rw [gather_apply, Cert.Spec.row_of_lt _ _ _ (hrange b h w)]
      have hw : Read.val_main_v6 (F := Ideal) x1 (ix4 b h w (⟨0, Nat.one_pos⟩ : Fin 1)) = x1 (ix3 b h w) := by
        have hi : Read.idx_main_v6 (ix4 b h w (⟨0, Nat.one_pos⟩ : Fin 1)) = ix3 b h w :=
          funext fun a => Fin.ext (match a with
            | ⟨0, _⟩ => rfl
            | ⟨1, _⟩ => rfl
            | ⟨2, _⟩ => rfl)
        rw [Read.val_main_v6_apply, Read.val_main_v5_apply, Read.val_main_v2_apply, Read.val_main_v4_apply,
          Read.val_main_v1_apply, Read.val_main_v3_apply, Read.val_main_c_apply, Read.val_main_c_0_apply, hi]
        exact wrapped_eq _ (hrange b h w)
      refine congrArg x3 (congrArg (fun r => ix2 r (⟨d.val - 256, hd'⟩ : Fin 256)) (Fin.ext ?_))
      show min (Read.val_main_v6 (F := Ideal) x1 (ix4 b h w (⟨0, Nat.one_pos⟩ : Fin 1))).toInt.toNat 9 = (x1 (ix3 b h w)).toNat
      rw [hw, toInt_of_lt_ten _ (hrange b h w)]
      have := hrange b h w
      omega

end Cert.RefIsG

end
-- ==== Proof.PreRange.lean ====
/-
  From the precondition to the colour words' range.

  The precondition is a conjunction of five `all`s: the three float inputs finite, every colour word `≥ 0` and every colour
  word `< 10` (signed comparisons). From the last two, every colour word, read unsigned, is below ten: a word that is not
  negative as a signed integer is its unsigned value.
-/
import proofs.«100483_j8358006358358_2_alg».proof.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- EVERY COLOUR WORD IS BELOW TEN when the precondition holds (at any float instance: the two conjuncts used compare
    integer words only). -/
theorem lt_ten_of_pre {F : FTy → Type} [FloatOps F] (a0 : FVec F S128x30x30x512 .f32) (a1 : IVec S128x30x30 32)
    (a2 : FVec F S30x30x256 .f32) (a3 : FVec F S10x256 .f32)
    (h : fn (F := F) a0 a1 a2 a3 = fun _ => 1#1) (p : S128x30x30.Idx) : (a1 p).toNat < 10 := by
  have h0 := congrFun h ix0
  dsimp only [fn, fn_part1] at h0
  obtain ⟨h01, h2⟩ := IntOp.andi_eq_one.1 h0
  obtain ⟨_, h1⟩ := IntOp.andi_eq_one.1 h01
  have ge : IntOp.cmpi .sge (a1 p) 0#32 = 1#1 := Host.reduce_andi_all _ _ _ _ _ h1 p
  have lt : IntOp.cmpi .slt (a1 p) 10#32 = 1#1 := Host.reduce_andi_all _ _ _ _ _ h2 p
  rw [IntOp.cmpi_sge] at ge
  rw [IntOp.cmpi_slt] at lt
  have e0 : (0#32 : BitVec 32).toInt = 0 := by decide
  have e10 : (10#32 : BitVec 32).toInt = 10 := by decide
  rw [e0] at ge
  rw [e10] at lt
  have hlt := (a1 p).isLt
  rw [BitVec.toInt_eq_toNat_cond] at ge lt
  by_cases hc : 2 * (a1 p).toNat < 2 ^ 32
  · rw [if_pos hc] at lt
    omega
  · rw [if_neg hc] at ge
    omega

end Cert.PreRange

end
-- ==== Proof.KernelPay.lean ====
/-
  The two payloads of the kernel's body, read at an index, at the ideal values.

  One trip of the body's loop handles two images of the block. It stores, into the first 256 features of those images,
  the loaded features plus the positional table (viewed with a leading unit axis and repeated over the two images); and,
  into the last 256 features, the loaded features plus a matrix product: the 1800 = 2 · 30 · 30 pixels' ONE-HOT rows (one
  where the pixel's colour word equals the colour, zero elsewhere, ten colours) times the [10, 256] colour table, into a
  zero accumulator. At the ideal values the product at pixel row `r` and feature `d` is the sum over the ten colours `k` of
  indicator(word = k) · table[k, d], which is the table's row of the word (`Spec.sum_onehot`).
-/
import proofs.«100483_j8358006358358_2_alg».proof.Proof.Gen.KernelIdeal.Skeleton
import proofs.«100483_j8358006358358_2_alg».proof.Proof.Spec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelPay

open Idealize.ShloMosaic Idealize.ShloMosaic.ValueIdx Cert.KernelIdeal
open Cert.KernelIdeal.Gen (k0_pay1 k0_pay2)
open scoped BigOperators

/-- THE POSITIONAL HALF'S PAYLOAD at `(a, h, w, d)`: the loaded features there plus the positional row of `(h, w)` at `d` —
    the table is viewed with a leading unit axis and repeated along it, so the batch coordinate `a` is not read. -/
theorem pay1_apply (v5 : FVec Ideal S2x30x30x256 .f32) (v6 : FVec Ideal S30x30x256 .f32)
    (a : Fin 2) (h : Fin 30) (w : Fin 30) (d : Fin 256) :
    k0_pay1 (F := Ideal) v5 v6 (ix4 a h w d) = v5 (ix4 a h w d) + v6 (ix3 h w d) := by
  unfold k0_pay1
  show (v5 (ix4 a h w d) : EReal) + _ = _
  refine congrArg (v5 (ix4 a h w d) + ·) ?_
  refine (broadcastTo_apply _ _ (ix4 a h w d) (ix4 (⟨0, Nat.one_pos⟩ : Fin 1) h w d) (fun b => ?_)).trans ?_
  · match b with
    | ⟨0, _⟩ => show (0 : Nat) = if (1 : Nat) = 1 then 0 else a.val; rw [if_pos rfl]
    | ⟨1, _⟩ => show h.val = if (30 : Nat) = 1 then 0 else h.val; rw [if_neg (by decide)]
    | ⟨2, _⟩ => show w.val = if (30 : Nat) = 1 then 0 else w.val; rw [if_neg (by decide)]
    | ⟨3, _⟩ => show d.val = if (256 : Nat) = 1 then 0 else d.val; rw [if_neg (by decide)]
  · refine shapeCast_apply v6 _ (ix4 (⟨0, Nat.one_pos⟩ : Fin 1) h w d) (ix3 h w d) ?_
    rw [Shape.rowMajor_val_three, Shape.rowMajor_val_four]
    show (h.val * 30 + w.val) * 256 + d.val = ((0 * 30 + h.val) * 30 + w.val) * 256 + d.val
    omega

variable [Cert.KernelIdeal.Facts]
open Cert.KernelIdeal.Facts₀ Cert.KernelIdeal.Facts

/-- The dimension numbers of the one-hot product: rows × colours times colours × features, one contracted axis. -/
abbrev D : DotDims S1800x10 S10x256 S1800x256 := dot_S1800x10_S10x256_S1800x256_1_0_0_1_n_n

theorem lhs_row (j : S1800x256.Idx) (k : D.contr.Idx) : (D.lhsIdx j k 0 : ℕ) = j 0 := by
  simp [DotDims.lhsIdx, D, dot_S1800x10_S10x256_S1800x256_1_0_0_1_n_n]; rfl
theorem rhs_col (j : S1800x256.Idx) (k : D.contr.Idx) : (D.rhsIdx j k 1 : ℕ) = j 1 := by
  simp [DotDims.rhsIdx, D, dot_S1800x10_S10x256_S1800x256_1_0_0_1_n_n]; rfl

/-- A one-bit word widened to 32 bits and read as a signed integer is its bit, so as an extended real the indicator of
    an equality of words is one or zero. -/
theorem indicator (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  rw [toInt_setWidth_bit]
  by_cases e : x = y
  · subst e; rw [if_pos rfl]; simp [IntOp.cmpi]
  · rw [if_neg e]; simp [IntOp.cmpi, e]

theorem lhs_col (j : S1800x256.Idx) (k : Fin 10) :
    (D.lhsIdx j ((contrEquiv1 D 10 rfl rfl).symm k) 1 : ℕ) = k.val :=
  (DotDims.lhsIdx_val_of_single D (cl := 1) rfl j _).trans (contrEquiv1_symm_val D 10 rfl rfl k)
theorem rhs_row (j : S1800x256.Idx) (k : Fin 10) :
    (D.rhsIdx j ((contrEquiv1 D 10 rfl rfl).symm k) 0 : ℕ) = k.val :=
  (DotDims.rhsIdx_val_of_single D (cr := 0) rfl j _).trans (contrEquiv1_symm_val D 10 rfl rfl k)

/-- THE ONE-HOT FACTOR at row `r = (a·30 + h)·30 + w`, colour `k`: one when pixel `(a, h, w)`'s colour word is `k`, zero
    otherwise. (The words are compared with the iota along the colour axis; the comparison bit is widened and converted;
    the [2, 30, 30, 10] array is viewed as [1800, 10] rows.) -/
theorem onehot_apply (v13 : IVec S2x30x30 32) (a : Fin 2) (h w : Fin 30) (k : Fin 10) (r : Fin 1800)
    (hr : r.val = (a.val * 30 + h.val) * 30 + w.val) :
    (shapeCast S1800x10 (sitofp (F := Ideal) .f32 (extui 32 (cmpi .eq
        (broadcastTo S2x30x30x10 (shapeCast S2x30x30x1 v13 shapeCasts_S2x30x30_S2x30x30x1) broadcasts_S2x30x30x1_S2x30x30x10)
        (iota .tc S2x30x30x10 32 [3] iota_S2x30x30x10_d3_w32)) natLt_1_32)) shapeCasts_S2x30x30x10_S1800x10
      : FVec Ideal S1800x10 .f32) (ix2 r k)
      = if v13 (ix3 a h w) = BitVec.ofNat 32 k.val then 1 else 0 := by
  refine (shapeCast_apply _ _ (ix2 r k) (ix4 a h w k) ?_).trans ?_
  · rw [Shape.rowMajor_val_four, Shape.rowMajor_val_two]
    show ((a.val * 30 + h.val) * 30 + w.val) * 10 + k.val = r.val * 10 + k.val
    rw [hr]
  · have e1 : broadcastTo S2x30x30x10 (shapeCast S2x30x30x1 v13 shapeCasts_S2x30x30_S2x30x30x1) broadcasts_S2x30x30x1_S2x30x30x10
        (ix4 a h w k) = v13 (ix3 a h w) := by
      refine (broadcastTo_apply _ _ (ix4 a h w k) (ix4 a h w (⟨0, Nat.one_pos⟩ : Fin 1)) (fun b => ?_)).trans ?_
      · match b with
        | ⟨0, _⟩ => show a.val = if (2 : Nat) = 1 then 0 else a.val; rw [if_neg (by decide)]
        | ⟨1, _⟩ => show h.val = if (30 : Nat) = 1 then 0 else h.val; rw [if_neg (by decide)]
        | ⟨2, _⟩ => show w.val = if (30 : Nat) = 1 then 0 else w.val; rw [if_neg (by decide)]
        | ⟨3, _⟩ => show (0 : Nat) = if (1 : Nat) = 1 then 0 else k.val; rw [if_pos rfl]
      · refine shapeCast_apply v13 _ (ix4 a h w (⟨0, Nat.one_pos⟩ : Fin 1)) (ix3 a h w) ?_
        rw [Shape.rowMajor_val_three, Shape.rowMajor_val_four]
        show (a.val * 30 + h.val) * 30 + w.val = ((a.val * 30 + h.val) * 30 + w.val) * 1 + 0
        omega
    have e2 : iota .tc S2x30x30x10 32 [3] iota_S2x30x30x10_d3_w32 (ix4 a h w k) = BitVec.ofNat 32 k.val :=
      iota_single_apply .tc S2x30x30x10 32 3 iota_S2x30x30x10_d3_w32 (ix4 a h w k)
    show FloatOps.sitofp (F := Ideal) .f32 ((IntOp.cmpi .eq
      (broadcastTo S2x30x30x10 (shapeCast S2x30x30x1 v13 shapeCasts_S2x30x30_S2x30x30x1) broadcasts_S2x30x30x1_S2x30x30x10 (ix4 a h w k))
      (iota .tc S2x30x30x10 32 [3] iota_S2x30x30x10_d3_w32 (ix4 a h w k))).setWidth 32) = _
    rw [e1, e2]
    exact indicator _ _

/-- THE COLOUR HALF'S PAYLOAD at `(a, h, w, d)`: the loaded features there plus the row of the pixel's colour word at `d` —
    the product of the one-hot rows with the colour table, into a zero accumulator, is at row `(a, h, w)` and feature `d`
    the sum over the ten colours of the indicator times the table's entry. -/
theorem pay2_apply (v13 : IVec S2x30x30 32) (v21 : FVec Ideal S10x256 .f32) (v25 : FVec Ideal S2x30x30x256 .f32)
    (a : Fin 2) (h w : Fin 30) (d : Fin 256) :
    k0_pay2 (F := Ideal) v13 v21 v25 (ix4 a h w d) = v25 (ix4 a h w d) + Cert.Spec.row v21 (v13 (ix3 a h w)) d := by
  have hr : (a.val * 30 + h.val) * 30 + w.val < 1800 := by
    have := a.isLt; have := h.isLt; have := w.isLt; omega
  unfold k0_pay2
  show (v25 (ix4 a h w d) : EReal) + _ = _
  refine congrArg (v25 (ix4 a h w d) + ·) ?_
  refine (shapeCast_apply _ _ (ix4 a h w d) (ix2 (⟨_, hr⟩ : Fin 1800) d) ?_).trans ?_
  · rw [Shape.rowMajor_val_two, Shape.rowMajor_val_four]
    rfl
  · refine (Ideal.matmul_constant_zero_apply D (some .fp32) _ v21 (ix2 (⟨_, hr⟩ : Fin 1800) d)).trans ?_
    rw [← Cert.Spec.sum_onehot, ← Equiv.sum_comp (contrEquiv1 D 10 rfl rfl).symm]
    refine Finset.sum_congr rfl fun k _ => ?_
    have el : D.lhsIdx (ix2 (⟨_, hr⟩ : Fin 1800) d) ((contrEquiv1 D 10 rfl rfl).symm k) = ix2 (⟨_, hr⟩ : Fin 1800) k :=
      funext fun b => Fin.ext (match b with
        | ⟨0, _⟩ => lhs_row _ _
        | ⟨1, _⟩ => lhs_col _ k)
    have er : D.rhsIdx (ix2 (⟨_, hr⟩ : Fin 1800) d) ((contrEquiv1 D 10 rfl rfl).symm k) = ix2 k d :=
      funext fun b => Fin.ext (match b with
        | ⟨0, _⟩ => rhs_row _ k
        | ⟨1, _⟩ => rhs_col _ _)
    rw [el, er, onehot_apply v13 a h w k ⟨_, hr⟩ rfl]

end Cert.KernelPay

end
-- ==== Proof.KernelBlock.lean ====
/-
  What the kernel's body leaves in its output block, as ONE function of the four input blocks.

  A block is four images. The body's loop makes two trips; trip `k` handles images `2k` and `2k + 1` and stores two pieces:
  the first 256 features of those images (features plus positional table) and their last 256 features (features plus the
  colour rows). The four pieces tile the block, and each is the restriction of one function `B` of the block index:

      B[a, h, w, d] = x0[a, h, w, d] + x2[h, w, d]                       for d < 256,
      B[a, h, w, d] = x0[a, h, w, d] + row(x3, x1[a, h, w])[d − 256]     for 256 ≤ d,

  with `x0` the features' block, `x1` the colour words' block, `x2` the positional table and `x3` the colour table. So the
  block read back after the body is `B`, whatever order the pieces were written in.
-/
import proofs.«100483_j8358006358358_2_alg».proof.Proof.Gen.KernelIdeal.Frame
import proofs.«100483_j8358006358358_2_alg».proof.Proof.KernelPay

set_option maxRecDepth 16384

noncomputable section

namespace Cert.KernelBlock

open Idealize.ShloMosaic Idealize.ShloMosaic.ValueIdx Idealize.ShloMosaic.TcCoe Idealize.SL.Sem
open Cert.KernelIdeal Cert.KernelIdeal.Gen

/-- What is added to feature `d` of image `a`, pixel `(h, w)`, of a block. -/
def encB (x1 : Vec Ideal S4x30x30 .i32) (x2 : Vec Ideal S30x30x256 .f32) (x3 : Vec Ideal S10x256 .f32)
    (a : Fin 4) (h w : Fin 30) (d : Fin 512) : EReal :=
  if hd : d.val < 256 then x2 (ix3 h w ⟨d.val, hd⟩)
  else Cert.Spec.row x3 (x1 (ix3 a h w)) ⟨d.val - 256, by omega⟩

/-- The output block as a function of the input blocks. -/
def B (x0 : Vec Ideal S4x30x30x512 .f32) (x1 : Vec Ideal S4x30x30 .i32) (x2 : Vec Ideal S30x30x256 .f32)
    (x3 : Vec Ideal S10x256 .f32) : S4x30x30x512.Idx → EReal :=
  fun y => x0 y + encB x1 x2 x3 (y 0) (y 1) (y 2) (y 3)

/-- `B` at an index whose feature coordinate is `d < 256`. -/
theorem B_lo (x0 : Vec Ideal S4x30x30x512 .f32) (x1 : Vec Ideal S4x30x30 .i32) (x2 : Vec Ideal S30x30x256 .f32)
    (x3 : Vec Ideal S10x256 .f32) (y : S4x30x30x512.Idx) (h w : Fin 30) (d : Fin 256)
    (h1 : (y 1).val = h.val) (h2 : (y 2).val = w.val) (h3 : (y 3).val = d.val) :
    B x0 x1 x2 x3 y = x0 y + x2 (ix3 h w d) := by
  obtain ⟨a', h', w', d', rfl⟩ : ∃ (a' : Fin 4) (h' w' : Fin 30) (d' : Fin 512), y = ix4 a' h' w' d' :=
    ⟨y 0, y 1, y 2, y 3, eq_ix4 y⟩
  obtain rfl : h' = h := Fin.ext h1
  obtain rfl : w' = w := Fin.ext h2
  have h3' : d'.val = d.val := h3
  show x0 _ + encB x1 x2 x3 a' h' w' d' = _
  unfold encB
  rw [dif_pos (show d'.val < 256 by have := d.isLt; omega)]
  exact congrArg (fun e => x0 (ix4 a' h' w' d') + x2 (ix3 h' w' e)) (Fin.ext h3')

/-- `B` at an index whose feature coordinate is `256 + d`. -/
theorem B_hi (x0 : Vec Ideal S4x30x30x512 .f32) (x1 : Vec Ideal S4x30x30 .i32) (x2 : Vec Ideal S30x30x256 .f32)
    (x3 : Vec Ideal S10x256 .f32) (y : S4x30x30x512.Idx) (a : Fin 4) (h w : Fin 30) (d : Fin 256)
    (h0 : (y 0).val = a.val) (h1 : (y 1).val = h.val) (h2 : (y 2).val = w.val) (h3 : (y 3).val = 256 + d.val) :
    B x0 x1 x2 x3 y = x0 y + Cert.Spec.row x3 (x1 (ix3 a h w)) d := by
  obtain ⟨a', h', w', d', rfl⟩ : ∃ (a' : Fin 4) (h' w' : Fin 30) (d' : Fin 512), y = ix4 a' h' w' d' :=
    ⟨y 0, y 1, y 2, y 3, eq_ix4 y⟩
  obtain rfl : a' = a := Fin.ext h0
  obtain rfl : h' = h := Fin.ext h1
  obtain rfl : w' = w := Fin.ext h2
  have h3' : d'.val = 256 + d.val := h3
  show x0 _ + encB x1 x2 x3 a' h' w' d' = _
  unfold encB
  rw [dif_neg (show ¬ d'.val < 256 by omega)]
  exact congrArg (fun e => x0 (ix4 a' h' w' d') + Cert.Spec.row x3 (x1 (ix3 a' h' w')) e) (Fin.ext (by show d'.val - 256 = d.val; omega))

/-- The loop makes at most two trips. -/
theorem trip_lt (k : Fin k0_t1_loop.trips) : k.val < 2 := Nat.lt_of_lt_of_le k.isLt k0_t1_abs.2.1

/-- ONE TRIP'S PIECES are blocks of `B`: each of the two stores of trip `k` writes, at its local index `x`, the value of `B` at
    the block index the store's rectangle sends `x` to (image `2k + a`; feature `d`, respectively `256 + d`). This is the one
    place where the trip's definition is opened. -/
theorem trip_pieces (c : Dev nD) (i : grid0.Coords) (arg1 : Memref sig .tc .vmem S4x30x30x512 .f32) (harg1 : arg1.IsWhole) (arg2 : Memref sig .tc .vmem S4x30x30 .i32) (harg2 : arg2.IsWhole) (arg3 : Memref sig .tc .vmem S30x30x256 .f32) (harg3 : arg3.IsWhole) (arg4 : Memref sig .tc .vmem S10x256 .f32) (harg4 : arg4.IsWhole) (arg5 : Memref sig .tc .vmem S4x30x30x512 .f32) (harg5 : arg5.IsWhole)
    (x0 : Vec Ideal S4x30x30x512 .f32) (x1 : Vec Ideal S4x30x30 .i32) (x2 : Vec Ideal S30x30x256 .f32) (x3 : Vec Ideal S10x256 .f32) (k : Fin k0_t1_loop.trips) :
    ∀ p ∈ tripL_k0_t1 (F := Ideal) Variants.none c none i arg1 harg1 arg2 harg2 arg3 harg3 arg4 harg4 arg5 harg5 (harg1.unread x0) (harg2.unread x1) (harg3.unread x2) (harg4.unread x3) k,
      ∀ x : p.1.shape.Idx, p.2 x = B x0 x1 x2 x3 (p.1.emb x) := by
  have hk := trip_lt k
  unfold tripL_k0_t1 trip_k0_t1
  dsimp only
  intro p hp
  simp only [List.mem_cons, List.not_mem_nil, or_false] at hp
  rcases hp with rfl | rfl
  · intro x
    obtain ⟨a, h, w, d, rfl⟩ : ∃ (a : Fin 2) (h w : Fin 30) (d : Fin 256), x = ix4 a h w d := ⟨x 0, x 1, x 2, x 3, eq_ix4 x⟩
    simp only [View.readAt_eq_ld, Memref.IsWhole.read_unread]
    refine (Cert.KernelPay.pay2_apply _ _ _ a h w d).trans ?_
    have ha : 2 * k.val + a.val < 4 := by have := a.isLt; omega
    rw [B_hi x0 x1 x2 x3 _ (⟨2 * k.val + a.val, ha⟩ : Fin 4) h w d
      (by rw [Rect.emb_apply]; show k0_off3 k 0 + 1 * a.val = 2 * k.val + a.val; rw [k0_off3_eq]; show 2 * k.val + 1 * a.val = _; omega)
      (by rw [Rect.emb_apply]; show k0_off3 k 1 + 1 * h.val = h.val; rw [k0_off3_eq]; show 0 + 1 * h.val = _; omega)
      (by rw [Rect.emb_apply]; show k0_off3 k 2 + 1 * w.val = w.val; rw [k0_off3_eq]; show 0 + 1 * w.val = _; omega)
      (by rw [Rect.emb_apply]; show k0_off3 k 3 + 1 * d.val = 256 + d.val; rw [k0_off3_eq]; show 256 + 1 * d.val = _; omega)]
    refine congrArg₂ (· + ·) rfl ?_
    rw [View.ld_unit_zero (S := S10x256) (funext fun b => match b with | ⟨0, _⟩ => rfl | ⟨1, _⟩ => rfl)]
    refine congrArg (fun e => Cert.Spec.row x3 (x1 e) d) (funext fun b => Fin.ext ?_)
    match b with
    | ⟨0, _⟩ => show k0_off2 k 0 + 1 * a.val = 2 * k.val + a.val; rw [k0_off2_eq]; show 2 * k.val + 1 * a.val = _; omega
    | ⟨1, _⟩ => show k0_off2 k 1 + 1 * h.val = h.val; rw [k0_off2_eq]; show 0 + 1 * h.val = _; omega
    | ⟨2, _⟩ => show k0_off2 k 2 + 1 * w.val = w.val; rw [k0_off2_eq]; show 0 + 1 * w.val = _; omega
  · intro x
    obtain ⟨a, h, w, d, rfl⟩ : ∃ (a : Fin 2) (h w : Fin 30) (d : Fin 256), x = ix4 a h w d := ⟨x 0, x 1, x 2, x 3, eq_ix4 x⟩
    simp only [View.readAt_eq_ld, Memref.IsWhole.read_unread]
    refine (Cert.KernelPay.pay1_apply _ _ a h w d).trans ?_
    rw [B_lo x0 x1 x2 x3 _ h w d
      (by rw [Rect.emb_apply]; show k0_off1 k 1 + 1 * h.val = h.val; rw [k0_off1_eq]; show 0 + 1 * h.val = _; omega)
      (by rw [Rect.emb_apply]; show k0_off1 k 2 + 1 * w.val = w.val; rw [k0_off1_eq]; show 0 + 1 * w.val = _; omega)
      (by rw [Rect.emb_apply]; show k0_off1 k 3 + 1 * d.val = d.val; rw [k0_off1_eq]; show 0 + 1 * d.val = _; omega)]
    refine congrArg₂ (· + ·) rfl ?_
    rw [View.ld_unit_zero (S := S30x30x256) (funext fun b => match b with | ⟨0, _⟩ => rfl | ⟨1, _⟩ => rfl | ⟨2, _⟩ => rfl)]

/-- THE PIECES OF THE FIRST `n` TRIPS are blocks of `B`, by induction on `n`: the pieces before trip `n + 1` are trip `n`'s in
    front of those before trip `n`. -/
theorem pb_pieces (c : Dev nD) (i : grid0.Coords) (arg1 : Memref sig .tc .vmem S4x30x30x512 .f32) (harg1 : arg1.IsWhole) (arg2 : Memref sig .tc .vmem S4x30x30 .i32) (harg2 : arg2.IsWhole) (arg3 : Memref sig .tc .vmem S30x30x256 .f32) (harg3 : arg3.IsWhole) (arg4 : Memref sig .tc .vmem S10x256 .f32) (harg4 : arg4.IsWhole) (arg5 : Memref sig .tc .vmem S4x30x30x512 .f32) (harg5 : arg5.IsWhole)
    (x0 : Vec Ideal S4x30x30x512 .f32) (x1 : Vec Ideal S4x30x30 .i32) (x2 : Vec Ideal S30x30x256 .f32) (x3 : Vec Ideal S10x256 .f32) (n : ℕ) (hn : n ≤ k0_t1_loop.trips) :
    ∀ p ∈ pb_k0_t1 (F := Ideal) Variants.none c none i arg1 harg1 arg2 harg2 arg3 harg3 arg4 harg4 arg5 harg5 (harg1.unread x0) (harg2.unread x1) (harg3.unread x2) (harg4.unread x3) n,
      ∀ x : p.1.shape.Idx, p.2 x = B x0 x1 x2 x3 (p.1.emb x) := by
  induction n with
  | zero => intro p hp; exact absurd hp List.not_mem_nil
  | succ n ih =>
    intro p hp
    have e : pb_k0_t1 (F := Ideal) Variants.none c none i arg1 harg1 arg2 harg2 arg3 harg3 arg4 harg4 arg5 harg5 (harg1.unread x0) (harg2.unread x1) (harg3.unread x2) (harg4.unread x3) (n + 1)
        = tripL_k0_t1 (F := Ideal) Variants.none c none i arg1 harg1 arg2 harg2 arg3 harg3 arg4 harg4 arg5 harg5 (harg1.unread x0) (harg2.unread x1) (harg3.unread x2) (harg4.unread x3) ⟨n, Nat.lt_of_succ_le hn⟩
          ++ pb_k0_t1 (F := Ideal) Variants.none c none i arg1 harg1 arg2 harg2 arg3 harg3 arg4 harg4 arg5 harg5 (harg1.unread x0) (harg2.unread x1) (harg3.unread x2) (harg4.unread x3) n :=
      pb_k0_t1_succ (F := Ideal) Variants.none c none i arg1 harg1 arg2 harg2 arg3 harg3 arg4 harg4 arg5 harg5 (harg1.unread x0) (harg2.unread x1) (harg3.unread x2) (harg4.unread x3) ⟨n, Nat.lt_of_succ_le hn⟩
    rw [e] at hp
    rcases List.mem_append.mp hp with h | h
    · exact trip_pieces c i arg1 harg1 arg2 harg2 arg3 harg3 arg4 harg4 arg5 harg5 x0 x1 x2 x3 ⟨n, Nat.lt_of_succ_le hn⟩ p h
    · exact ih (Nat.le_of_succ_le hn) p h

/-- THE BLOCK AFTER THE BODY is `B` of the input blocks: the run's pieces are those of all the loop's trips, they cover the
    block, and each is a block of `B`. -/
theorem out_eq (c : Dev nD) (i : grid0.Coords) (arg1 : Memref sig .tc .vmem S4x30x30x512 .f32) (harg1 : arg1.IsWhole) (arg2 : Memref sig .tc .vmem S4x30x30 .i32) (harg2 : arg2.IsWhole) (arg3 : Memref sig .tc .vmem S30x30x256 .f32) (harg3 : arg3.IsWhole) (arg4 : Memref sig .tc .vmem S10x256 .f32) (harg4 : arg4.IsWhole) (arg5 : Memref sig .tc .vmem S4x30x30x512 .f32) (harg5 : arg5.IsWhole)
    (x0 : Vec Ideal S4x30x30x512 .f32) (x1 : Vec Ideal S4x30x30 .i32) (x2 : Vec Ideal S30x30x256 .f32) (x3 : Vec Ideal S10x256 .f32) :
    out0_A_4 (F := Ideal) c i arg1 harg1 arg2 harg2 arg3 harg3 arg4 harg4 arg5 harg5 x0 x1 x2 x3 = B x0 x1 x2 x3 := by
  funext y
  unfold out0_A_4
  rw [View.read_writes_eq_canon _ _ _ (cover0_A_4 c i arg1 harg1 arg2 harg2 arg3 harg3 arg4 harg4 arg5 harg5 x0 x1 x2 x3)]
  refine View.canon_apply_of_pieces (B x0 x1 x2 x3) _ ?_ y (cover0_A_4 c i arg1 harg1 arg2 harg2 arg3 harg3 arg4 harg4 arg5 harg5 x0 x1 x2 x3 y)
  have e : (kernelRun0_A (F := Ideal) c i arg1 harg1 arg2 harg2 arg3 harg3 arg4 harg4 arg5 harg5 x0 x1 x2 x3).1
      = pb_k0_t1 (F := Ideal) Variants.none c none i arg1 harg1 arg2 harg2 arg3 harg3 arg4 harg4 arg5 harg5 (harg1.unread x0) (harg2.unread x1) (harg3.unread x2) (harg4.unread x3) k0_t1_loop.trips := by
    unfold kernelRun0_A
    rfl
  rw [e]
  exact pb_pieces c i arg1 harg1 arg2 harg2 arg3 harg3 arg4 harg4 arg5 harg5 x0 x1 x2 x3 _ le_rfl

end Cert.KernelBlock

end
-- ==== Proof.KernelIsG.lean ====
/-
  The kernel's output array after the run is the specification `G` of the argument arrays.

  The grid has 32 points; point `t` is handed images `4t … 4t + 3` of the features and of the colour words, and the two tables
  whole, and writes back images `4t … 4t + 3` of the output. What it writes back is the body's block function `B` of those
  blocks, and `B` of the blocks at point `t` is `G` of the whole arrays read through the output's block at `t`: image `a` of a
  block is image `4t + a` of the array, the other coordinates are the array's own. The 32 blocks cover the 128 images, so the
  array ends holding `G`.
-/
import proofs.«100483_j8358006358358_2_alg».proof.Proof.Gen.KernelIdeal.Value
import proofs.«100483_j8358006358358_2_alg».proof.Proof.KernelBlock

set_option maxRecDepth 16384

noncomputable section

namespace Cert.KernelIsG

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

/-- Image `a` of the block at grid point `T` is image `4T + a` of the array. -/
def img (T : ℕ) (hT : T < 32) (a : Fin 4) : Fin 128 := ⟨4 * T + a.val, by have := a.isLt; omega⟩

/-- THE BLOCK FUNCTION OF BLOCKS IS `G` THROUGH THE BLOCK: if `x0` and `x1` are images `4T … 4T + 3` of the arrays `A0` and `A1`
    and `x2`, `x3` are the tables, then `B` of them at `(a, h, w, d)` is `G` of the arrays at `(4T + a, h, w, d)`. -/
theorem B_eq_G (A0 : Cert.Spec.SX.Idx → EReal) (A1 : Cert.Spec.SI.Idx → BitVec 32) (A2 : Cert.Spec.SP.Idx → EReal)
    (A3 : Cert.Spec.SC.Idx → EReal)
    (x0 : Vec Ideal S4x30x30x512 .f32) (x1 : Vec Ideal S4x30x30 .i32) (x2 : Vec Ideal S30x30x256 .f32) (x3 : Vec Ideal S10x256 .f32)
    (T : ℕ) (hT : T < 32)
    (h0 : ∀ (a : Fin 4) (h w : Fin 30) (d : Fin 512), x0 (ix4 a h w d) = A0 (ix4 (img T hT a) h w d))
    (h1 : ∀ (a : Fin 4) (h w : Fin 30), x1 (ix3 a h w) = A1 (ix3 (img T hT a) h w))
    (h2 : x2 = A2) (h3 : x3 = A3) (a : Fin 4) (h w : Fin 30) (d : Fin 512) :
    Cert.KernelBlock.B x0 x1 x2 x3 (ix4 a h w d) = Cert.Spec.G A0 A1 A2 A3 (ix4 (img T hT a) h w d) := by
  subst h2 h3
  show x0 (ix4 a h w d) + Cert.KernelBlock.encB x1 x2 x3 a h w d
    = A0 (ix4 (img T hT a) h w d) + Cert.Spec.enc A1 x2 x3 (img T hT a) h w d
  rw [h0]
  refine congrArg (A0 (ix4 (img T hT a) h w d) + ·) ?_
  unfold Cert.KernelBlock.encB Cert.Spec.enc
  by_cases hd : d.val < 256
  · rw [dif_pos hd, dif_pos hd]
  · rw [dif_neg hd, dif_neg hd, h1]

variable (m : (ℓ : Loc nD τ sig) → Buf (Elt Ideal) ℓ) (ρ : Dev nD → PrngReg)

/-- The specification at the argument arrays as core `c` holds them at launch. -/
abbrev GG (c : Dev nD) : S128x30x30x512.Idx → EReal :=
  Cert.Spec.G (m ((c : Thread nD τ).loc main_arg0)) (m ((c : Thread nD τ).loc main_arg1)) (m ((c : Thread nD τ).loc main_arg2)) (m ((c : Thread nD τ).loc main_arg3))

/-- The printed index maps, decided over the grid: the features', the colour words' and the output's blocks move with the
    point along the image axis; the two tables' blocks stay at zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- WHAT POINT `t` WRITES BACK is block `t` of `G` of the argument arrays. -/
theorem flushed_eq (c : Dev nD) (t : Fin cfg0.N) :
    (dats m 0 c).flushed 4 t = ((cfg0.win 4).blk t).view.read (Elt Ideal) (GG m c) := by
  rw [flushed4_A]
  rw [Cert.KernelBlock.out_eq c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)]
  obtain ⟨e00, e01, e02, e03, e10, e11, e12, e20, e21, e22, e30, e31, e40, e41, e42, e43⟩ := idx_facts t
  have hT : t.val < 32 := Nat.lt_of_lt_of_eq t.isLt N_0
  funext j
  obtain ⟨a, h, w, d, rfl⟩ : ∃ (a : Fin 4) (h w : Fin 30) (d : Fin 512), j = ix4 a h w d := ⟨j 0, j 1, j 2, j 3, eq_ix4 j⟩
  show Cert.KernelBlock.B (iblk m c 0 t) (iblk m c 1 t) (iblk m c 2 t) (iblk m c 3 t) (ix4 a h w d)
    = GG m c (((cfg0.win 4).blk t).view.emb (ix4 a h w d))
  refine (B_eq_G (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) t.val hT ?_ ?_ ?_ ?_ a h w d).trans ?_
  · intro a h w d
    show V m c main_arg0 (((cfg0.win 0).blk t).view.emb (ix4 a h w d)) = _
    refine congrArg (V m c main_arg0) (funext fun b => Fin.ext ?_)
    match b with
    | ⟨0, _⟩ => show win0_0.index t (0 : Fin 4) * 4 + 1 * a.val = 4 * t.val + a.val; rw [e00]; omega
    | ⟨1, _⟩ => show win0_0.index t (1 : Fin 4) * 30 + 1 * h.val = h.val; rw [e01]; omega
    | ⟨2, _⟩ => show win0_0.index t (2 : Fin 4) * 30 + 1 * w.val = w.val; rw [e02]; omega
    | ⟨3, _⟩ => show win0_0.index t (3 : Fin 4) * 512 + 1 * d.val = d.val; rw [e03]; omega
  · intro a h w
    show V m c main_arg1 (((cfg0.win 1).blk t).view.emb (ix3 a h w)) = _
    refine congrArg (V m c main_arg1) (funext fun b => Fin.ext ?_)
    match b with
    | ⟨0, _⟩ => show win0_1.index t (0 : Fin 3) * 4 + 1 * a.val = 4 * t.val + a.val; rw [e10]; omega
    | ⟨1, _⟩ => show win0_1.index t (1 : Fin 3) * 30 + 1 * h.val = h.val; rw [e11]; omega
    | ⟨2, _⟩ => show win0_1.index t (2 : Fin 3) * 30 + 1 * w.val = w.val; rw [e12]; omega
  · funext y
    show V m c main_arg2 (((cfg0.win 2).blk t).view.emb y) = V m c main_arg2 y
    refine congrArg (V m c main_arg2) (funext fun b => Fin.ext ?_)
    match b with
    | ⟨0, _⟩ => show win0_2.index t (0 : Fin 3) * 30 + 1 * (y 0).val = (y 0).val; rw [e20]; omega
    | ⟨1, _⟩ => show win0_2.index t (1 : Fin 3) * 30 + 1 * (y 1).val = (y 1).val; rw [e21]; omega
    | ⟨2, _⟩ => show win0_2.index t (2 : Fin 3) * 256 + 1 * (y 2).val = (y 2).val; rw [e22]; omega
  · funext y
    show V m c main_arg3 (((cfg0.win 3).blk t).view.emb y) = V m c main_arg3 y
    refine congrArg (V m c main_arg3) (funext fun b => Fin.ext ?_)
    match b with
    | ⟨0, _⟩ => show win0_3.index t (0 : Fin 2) * 10 + 1 * (y 0).val = (y 0).val; rw [e30]; omega
    | ⟨1, _⟩ => show win0_3.index t (1 : Fin 2) * 256 + 1 * (y 1).val = (y 1).val; rw [e31]; omega
  · refine congrArg (GG m c) (funext fun b => Fin.ext ?_)
    match b with
    | ⟨0, _⟩ => show 4 * t.val + a.val = win0_4.index t (0 : Fin 4) * 4 + 1 * a.val; rw [e40]; omega
    | ⟨1, _⟩ => show h.val = win0_4.index t (1 : Fin 4) * 30 + 1 * h.val; rw [e41]; omega
    | ⟨2, _⟩ => show w.val = win0_4.index t (2 : Fin 4) * 30 + 1 * w.val; rw [e42]; omega
    | ⟨3, _⟩ => show d.val = win0_4.index t (3 : Fin 4) * 512 + 1 * d.val; rw [e43]; omega

/-- An index of the array is in point `t`'s block iff each coordinate is in the block's range on its axis. -/
theorem mem_blk (t : Fin cfg0.N) (i : S128x30x30x512.Idx) :
    i ∈ ((cfg0.win 4).blk t).view.set ↔ ∀ a : Fin 4, win0_4.index t a * S4x30x30x512.size a ≤ (i a).val
      ∧ (i a).val < win0_4.index t a * S4x30x30x512.size a + S4x30x30x512.size a := by
  show i ∈ ((View.whole main_v0).slice (win0_4.rect t)).set ↔ _
  rw [View.set_slice_whole, Rect.mem_set_unit]
  exact Iff.rfl

/-- THE BLOCKS COVER THE ARRAY: image `r` is in the block of point `r / 4`. -/
theorem cover (i : S128x30x30x512.Idx) :
    ∃ t : Fin cfg0.N, (cfg0.win 4).flush t = true ∧ i ∈ ((cfg0.win 4).blk t).view.set := by
  have hi0 : (i 0).val < 128 := (i 0).isLt
  have hi1 : (i 1).val < 30 := (i 1).isLt
  have hi2 : (i 2).val < 30 := (i 2).isLt
  have hi3 : (i 3).val < 512 := (i 3).isLt
  have hN : (i 0).val / 4 < cfg0.N := by rw [show cfg0.N = 32 from N_0]; omega
  obtain ⟨-, -, -, -, -, -, -, -, -, -, -, -, e40, e41, e42, e43⟩ := idx_facts ⟨(i 0).val / 4, hN⟩
  refine ⟨⟨(i 0).val / 4, hN⟩, flush0_4 _, ?_⟩
  rw [mem_blk]
  intro a
  match a with
  | ⟨0, _⟩ =>
    show win0_4.index ⟨(i 0).val / 4, hN⟩ (0 : Fin 4) * 4 ≤ (i 0).val ∧ (i 0).val < win0_4.index ⟨(i 0).val / 4, hN⟩ (0 : Fin 4) * 4 + 4
    rw [e40]; show (i 0).val / 4 * 4 ≤ (i 0).val ∧ (i 0).val < (i 0).val / 4 * 4 + 4; omega
  | ⟨1, _⟩ =>
    show win0_4.index ⟨(i 0).val / 4, hN⟩ (1 : Fin 4) * 30 ≤ (i 1).val ∧ (i 1).val < win0_4.index ⟨(i 0).val / 4, hN⟩ (1 : Fin 4) * 30 + 30
    rw [e41]; omega
  | ⟨2, _⟩ =>
    show win0_4.index ⟨(i 0).val / 4, hN⟩ (2 : Fin 4) * 30 ≤ (i 2).val ∧ (i 2).val < win0_4.index ⟨(i 0).val / 4, hN⟩ (2 : Fin 4) * 30 + 30
    rw [e42]; omega
  | ⟨3, _⟩ =>
    show win0_4.index ⟨(i 0).val / 4, hN⟩ (3 : Fin 4) * 512 ≤ (i 3).val ∧ (i 3).val < win0_4.index ⟨(i 0).val / 4, hN⟩ (3 : Fin 4) * 512 + 512
    rw [e43]; omega

/-- THE ARRAY after the run is `G` of the argument arrays. -/
theorem final (c : Dev nD) : (dats m 0 c).arrAt 4 cfg0.N = GG m c :=
  (dats m 0 c).arrAt_eq_of_cover 4 (GG m c) (fun t _ => flushed_eq m c t) cover

/-- THE KERNEL'S RUN, READ: every weakly fair execution terminates with the output array at `G` of the argument arrays
    and the arguments unchanged. -/
theorem run : θ_run defs (onTc (τ := τ) (main (F := Ideal))) ⟨m, fun _ => 0, ρ⟩ fun r => ∀ c : Dev nD,
      r.2.mem ((c : Thread nD τ).loc main_v0) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIsG

end
-- ==== Proof.lean ====
/-
  The certificate of a kernel that adds positional and colour encodings to a batch of feature grids, against its jnp
  reference.

  Both programs compute, for features `x : [128, 30, 30, 512]`, colour words `idx : [128, 30, 30]`, a positional table
  `sp : [30, 30, 256]` and a colour table `ch : [10, 256]`,

      out[b, h, w, d] = x[b, h, w, d] + sp[h, w, d]                    for d < 256,
      out[b, h, w, d] = x[b, h, w, d] + ch[idx[b, h, w], d − 256]      for 256 ≤ d        (`Spec.G`).

  THE REFERENCE concatenates the broadcast positional table with a row lookup `ch[idx]` and adds the features
  (`RefIsG.ref_eq`, over the generated run of the reference and its read-at-an-index lemmas; the lookup and the
  concatenation read by hand). THE KERNEL walks the batch four images at a time; per block its body's loop makes two trips
  of two images, and replaces the lookup by a product of ONE-HOT rows (one where the pixel's word is the colour) with the
  colour table: the sum over the ten colours of indicator · entry is the word's row (`Spec.sum_onehot`; only `0 · a = 0`,
  `1 · a = a`, `0 + a = a`, so no finiteness is used). `KernelPay` reads the body's two payloads at an index, `KernelBlock`
  reads the block the body leaves as one function of its input blocks, `KernelIsG` goes from the 32 blocks to the array.

  The two sides agree exactly when every colour word is one of the ten colours: a word outside `[0, 10)` selects the zero
  row in the product, and a wrapped or clamped row in the lookup. The precondition states that range (with the finiteness
  of the float inputs, which this proof does not need), and `PreRange` reads it back.

  The three frame conjuncts are the generated frames (the reference's: its generated run with the result dropped); the
  idealization rewrote no operation, so `preserves` is `True`.
-/
import proofs.«100483_j8358006358358_2_alg».proof.Defs
import proofs.«100483_j8358006358358_2_alg».proof.Proof.Gen.Kernel
import proofs.«100483_j8358006358358_2_alg».proof.Proof.Gen.Kernel.Skeleton
import proofs.«100483_j8358006358358_2_alg».proof.Proof.Gen.Kernel.Loops
import proofs.«100483_j8358006358358_2_alg».proof.Proof.Gen.Kernel.Launch
import proofs.«100483_j8358006358358_2_alg».proof.Proof.Gen.Kernel.Points
import proofs.«100483_j8358006358358_2_alg».proof.Proof.Gen.Kernel.Frame
import proofs.«100483_j8358006358358_2_alg».proof.Proof.Gen.KernelIdeal
import proofs.«100483_j8358006358358_2_alg».proof.Proof.Gen.KernelIdeal.Skeleton
import proofs.«100483_j8358006358358_2_alg».proof.Proof.Gen.KernelIdeal.Loops
import proofs.«100483_j8358006358358_2_alg».proof.Proof.Gen.KernelIdeal.Launch
import proofs.«100483_j8358006358358_2_alg».proof.Proof.Gen.KernelIdeal.Points
import proofs.«100483_j8358006358358_2_alg».proof.Proof.Gen.KernelIdeal.Frame
import proofs.«100483_j8358006358358_2_alg».proof.Proof.Gen.ReferenceIdeal
import proofs.«100483_j8358006358358_2_alg».proof.Proof.Gen.Pre_finite_inputs
import proofs.«100483_j8358006358358_2_alg».proof.Proof.Gen.KernelIdeal.Value
import proofs.«100483_j8358006358358_2_alg».proof.Proof.Gen.ReferenceIdeal.Run
import proofs.«100483_j8358006358358_2_alg».proof.Proof.Gen.ReferenceIdeal.Read
import proofs.«100483_j8358006358358_2_alg».proof.Proof.Spec
import proofs.«100483_j8358006358358_2_alg».proof.Proof.RefIsG
import proofs.«100483_j8358006358358_2_alg».proof.Proof.PreRange
import proofs.«100483_j8358006358358_2_alg».proof.Proof.KernelIsG
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments unchanged: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every colour word below ten, the idealized kernel's output array and
    the idealized reference's result are the same function `G` of the arguments. -/
theorem algebraic : Cert.algebraic_KernelIdeal_ReferenceIdeal := by
  intro m ρ m' ρ' hpre hagree
  refine ⟨fun c => Cert.KernelIsG.GG m c, Cert.KernelIsG.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2]
  exact Cert.RefIsG.ref_eq _ _ _ _ (fun b h w => Cert.PreRange.lt_ten_of_pre _ _ _ _ (hpre c) (ix3 b h w))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
